-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1 : Shape := ⟨1, ![1]⟩
abbrev S8192x4096 : Shape := ⟨2, ![8192, 4096]⟩
abbrev S1024x4096 : Shape := ⟨2, ![1024, 4096]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 62
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4x2048x4096, .f32⟩
  | .hbm, ⟨52, _⟩ => ⟨S4x2048x4096, .f32⟩
  | .hbm, ⟨53, _⟩ => ⟨S4x2048x4096, .bf16⟩
  | .hbm, ⟨54, _⟩ => ⟨S4096x4096, .f32⟩
  | .hbm, ⟨55, _⟩ => ⟨S4096x4096, .f32⟩
  | .hbm, ⟨56, _⟩ => ⟨S4096x4096, .bf16⟩
  | .hbm, ⟨57, _⟩ => ⟨S_, .f32⟩
  | .hbm, ⟨58, _⟩ => ⟨S1, .f32⟩
  | .hbm, ⟨59, _⟩ => ⟨S8192x4096, .bf16⟩
  | .hbm, ⟨60, _⟩ => ⟨S8192x4096, .f32⟩
  | .hbm, ⟨61, _⟩ => ⟨S4x2048x4096, .f32⟩
  | .local _ .vmem, ⟨0, _⟩ => ⟨S1, .f32⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024, .f32⟩
  | .local _ .vmem, ⟨6, _⟩ => ⟨S1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_cst_1 : Ref sig .tc := ⟨.hbm, 8, rfl⟩
abbrev main_call0_v3 : Ref sig .tc := ⟨.hbm, 9, rfl⟩
abbrev main_call0_v4 : Ref sig .tc := ⟨.hbm, 10, rfl⟩
abbrev main_call0_cst_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_cst_3 : Ref sig .tc := ⟨.hbm, 19, rfl⟩
abbrev main_call0_cst_4 : Ref sig .tc := ⟨.hbm, 20, rfl⟩
abbrev main_call0_call2_v0 : Ref sig .tc := ⟨.hbm, 21, rfl⟩
abbrev main_call0_call2_v1 : Ref sig .tc := ⟨.hbm, 22, rfl⟩
abbrev main_call0_call2_v2 : Ref sig .tc := ⟨.hbm, 23, rfl⟩
abbrev main_call0_call2_v3 : Ref sig .tc := ⟨.hbm, 24, rfl⟩
abbrev main_call0_call2_v4 : Ref sig .tc := ⟨.hbm, 25, rfl⟩
abbrev main_call0_v12 : Ref sig .tc := ⟨.hbm, 26, rfl⟩
abbrev main_call0_cst_5 : Ref sig .tc := ⟨.hbm, 27, rfl⟩
abbrev main_call0_v13 : Ref sig .tc := ⟨.hbm, 28, rfl⟩
abbrev main_call0_cst_6 : Ref sig .tc := ⟨.hbm, 29, rfl⟩
abbrev main_call0_v14 : Ref sig .tc := ⟨.hbm, 30, rfl⟩
abbrev main_call0_v15 : Ref sig .tc := ⟨.hbm, 31, rfl⟩
abbrev main_call0_cst_7 : Ref sig .tc := ⟨.hbm, 32, rfl⟩
abbrev main_call0_v16 : Ref sig .tc := ⟨.hbm, 33, rfl⟩
abbrev main_call0_v17 : Ref sig .tc := ⟨.hbm, 34, rfl⟩
abbrev main_call0_cst_8 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_cst_9 : Ref sig .tc := ⟨.hbm, 43, rfl⟩
abbrev main_call0_cst_10 : Ref sig .tc := ⟨.hbm, 44, rfl⟩
abbrev main_call0_call5_v0 : Ref sig .tc := ⟨.hbm, 45, rfl⟩
abbrev main_call0_call5_v1 : Ref sig .tc := ⟨.hbm, 46, rfl⟩
abbrev main_call0_call5_v2 : Ref sig .tc := ⟨.hbm, 47, rfl⟩
abbrev main_call0_call5_v3 : Ref sig .tc := ⟨.hbm, 48, rfl⟩
abbrev main_call0_call5_v4 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_v0 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x2048x4096_S_d0_1_2 : S4x2048x4096.ReducesTo [0, 1, 2] S_
  h_S_ : 0 < S_.numel
  bcast_S_S4x2048x4096 : S_.BroadcastsInDim S4x2048x4096 (![] : Fin 0 → Fin S4x2048x4096.rank)
  reducesTo_S4096x4096_S_d0_1 : S4096x4096.ReducesTo [0, 1] S_
  bcast_S_S4096x4096 : S_.BroadcastsInDim S4096x4096 (![] : Fin 0 → Fin S4096x4096.rank)
  bitsLt_bf16_f32 : FTy.bits .bf16 < FTy.bits .f32
  shapeCasts_S_S1 : S_.ShapeCasts S1
  shapeCasts_S4x2048x4096_S8192x4096 : S4x2048x4096.ShapeCasts S8192x4096
  shapeCasts_S8192x4096_S4x2048x4096 : S8192x4096.ShapeCasts S4x2048x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1_S1_0 : ∀ a, (![0] : Fin 1 → Nat) a + S1.size a ≤ S1.size a
  h_S1 : 0 < S1.numel
  inpos_S1_p0 : ∀ a, (![0] : Fin 1 → Nat) a < S1.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .bf16 = 32 ∨ (Rect.block (s := S8192x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_call0_v33) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v34) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v31) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v35) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4x2048x4096, .f32⟩
  | .hbm, ⟨52, _⟩ => ⟨S4x2048x4096, .f32⟩
  | .hbm, ⟨53, _⟩ => ⟨S4096x4096, .f32⟩
  | .hbm, ⟨54, _⟩ => ⟨S4096x4096, .f32⟩
  | .hbm, ⟨55, _⟩ => ⟨S4x2048x4096, .f32⟩
  | .hbm, ⟨56, _⟩ => ⟨S_, .f32⟩
  | .hbm, ⟨57, _⟩ => ⟨S4x2048x4096, .f32⟩
  | .hbm, ⟨58, _⟩ => ⟨S4x2048x4096, .f32⟩
  | .hbm, ⟨59, _⟩ => ⟨S1x1x4096, .f32⟩
  | .hbm, ⟨60, _⟩ => ⟨S4x2048x4096, .f32⟩
  | .hbm, ⟨61, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_cst_10 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  reducesTo_S4x2048x4096_S_d0_1_2 : S4x2048x4096.ReducesTo [0, 1, 2] S_
  h_S_ : 0 < S_.numel
  bcast_S_S4x2048x4096 : S_.BroadcastsInDim S4x2048x4096 (![] : Fin 0 → Fin S4x2048x4096.rank)
  reducesTo_S4096x4096_S_d0_1 : S4096x4096.ReducesTo [0, 1] S_
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the quantized linear layer, free of any program.

  Both programs centre the quantized activations and weights and form, for every row of activations and every
  output feature, the inner product over the 4096 input features, scale it by one number `σ` (the product of the
  two quantization steps) and add that feature's bias. They differ in two ways only: one works on the 8192 rows
  `(b, s) ↦ b * 2048 + s` of the activations laid out as a matrix and multiplies by `σ` on the right, the other
  keeps the `[4, 2048, 4096]` arrangement and multiplies by `σ` on the left. Multiplication of extended reals is
  commutative, and a row-major re-arrangement moves no entry: the two results agree entry by entry, with no
  finiteness assumption.
-/
import Idealize.ShloMosaic.PureOps.Ideal
import Idealize.ShloMosaic.Lib.ValueIdx
import Idealize.ShloMosaic.Lib.Pipeline.Value

noncomputable section

open scoped BigOperators

namespace Cert.QuantLinear

open Idealize.ShloMosaic Idealize.ShloMosaic.ValueIdx

/-- Activations as `[batch, sequence, feature]`. -/
abbrev Cube : Shape := ⟨3, ![4, 2048, 4096]⟩
/-- The same entries as `[row, feature]`, row `b * 2048 + s`. -/
abbrev Rows : Shape := ⟨2, ![8192, 4096]⟩
/-- Weights as `[output feature, input feature]`. -/
abbrev Wts : Shape := ⟨2, ![4096, 4096]⟩
/-- One number per output feature. -/
abbrev Feat : Shape := ⟨1, ![4096]⟩

/-- Entry `(r, o)` of the matrix arrangement: the inner product of row `r` of `X` with row `o` of `B`, times `σ`,
    plus `β o`. -/
def rowsAt (X : Rows.Idx → EReal) (B : Wts.Idx → EReal) (σ : EReal) (β : Feat.Idx → EReal) (r : Fin 8192) (o : Fin 4096) : EReal :=
  (∑ k : Fin 4096, X (ix2 r k) * B (ix2 o k)) * σ + β (ix1 o)

/-- The matrix arrangement as an array. -/
def rowsOut (X : Rows.Idx → EReal) (B : Wts.Idx → EReal) (σ : EReal) (β : Feat.Idx → EReal) : Rows.Idx → EReal :=
  fun j => rowsAt X B σ β (j 0) (j 1)

/-- Entry `(b, s, o)` of the three-axis arrangement: `σ` times the inner product of `A (b, s, ·)` with row `o` of `B`,
    plus `β o`. -/
def cubeAt (A : Cube.Idx → EReal) (B : Wts.Idx → EReal) (σ : EReal) (β : Feat.Idx → EReal) (b : Fin 4) (s : Fin 2048) (o : Fin 4096) : EReal :=
  σ * (∑ k : Fin 4096, A (ix3 b s k) * B (ix2 o k)) + β (ix1 o)

/-- The three-axis arrangement as an array. -/
def cubeOut (A : Cube.Idx → EReal) (B : Wts.Idx → EReal) (σ : EReal) (β : Feat.Idx → EReal) : Cube.Idx → EReal :=
  fun i => cubeAt A B σ β (i 0) (i 1) (i 2)

/-- The row of the matrix that holds entry `(b, s, ·)`. -/
def rowOf (b : Fin 4) (s : Fin 2048) : Fin 8192 := ⟨b.val * 2048 + s.val, by have := b.isLt; have := s.isLt; omega⟩

/-- Re-arranging `[4, 2048, 4096]` row-major into `[8192, 4096]` puts entry `(b, s, k)` at `(b * 2048 + s, k)`. -/
theorem flatten_apply (A : Cube.Idx → EReal) (h : Cube.ShapeCasts Rows) (b : Fin 4) (s : Fin 2048) (k : Fin 4096) :
    shapeCast Rows A h (ix2 (rowOf b s) k) = A (ix3 b s k) :=
  shapeCast_apply A h _ _ (by
    rw [Shape.rowMajor_val_three, Shape.rowMajor_val_two]
    rfl)

/-- Re-arranging `[8192, 4096]` row-major into `[4, 2048, 4096]` reads entry `(b, s, o)` at `(b * 2048 + s, o)`. -/
theorem unflatten_apply (Y : Rows.Idx → EReal) (h : Rows.ShapeCasts Cube) (b : Fin 4) (s : Fin 2048) (o : Fin 4096) :
    shapeCast Cube Y h (ix3 b s o) = Y (ix2 (rowOf b s) o) :=
  shapeCast_apply Y h _ _ (by
    rw [Shape.rowMajor_val_three, Shape.rowMajor_val_two]
    rfl)

/-- THE LAW. The matrix arrangement of the flattened activations, re-arranged back to three axes, is the three-axis
    arrangement: the re-arrangements move no entry and `· * σ = σ * ·` on the extended reals. -/
theorem unflatten_rowsOut (A : Cube.Idx → EReal) (B : Wts.Idx → EReal) (σ : EReal) (β : Feat.Idx → EReal)
    (h₁ : Cube.ShapeCasts Rows) (h₂ : Rows.ShapeCasts Cube) :
    shapeCast Cube (rowsOut (shapeCast Rows A h₁) B σ β) h₂ = cubeOut A B σ β := by
  funext i
  obtain ⟨b, s, o, rfl⟩ : ∃ (b : Fin 4) (s : Fin 2048) (o : Fin 4096), i = ix3 b s o := ⟨i 0, i 1, i 2, eq_ix3 i⟩
  rw [unflatten_apply]
  show (∑ k : Fin 4096, shapeCast Rows A h₁ (ix2 (rowOf b s) k) * B (ix2 o k)) * σ + β (ix1 o)
      = σ * (∑ k : Fin 4096, A (ix3 b s k) * B (ix2 o k)) + β (ix1 o)
  rw [mul_comm]
  refine congrArg (fun z => σ * z + β (ix1 o)) (Finset.sum_congr rfl fun k _ => ?_)
  rw [flatten_apply]

end Cert.QuantLinear

end
-- ==== Proof.Payload.lean ====
/-
  What one grid point stores, entry by entry.

  At a grid point the body holds a `[1024, 4096]` block of activation rows, a `[1024, 4096]` block of weight rows, the
  one-element scale and a `[1024]` block of biases. It contracts the two blocks over their second axes into a zero
  accumulator, multiplies every entry by the scale and adds the bias of the entry's column. Over the extended reals the
  contraction into zero is the plain sum of products, so entry `(p, q)` of what is stored is
  `(∑ₖ rows (p, k) · weights (q, k)) · scale + bias q`.
-/
import proofs.«173431_j6459630813322_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Idealize.ShloMosaic Idealize.ShloMosaic.ValueIdx
open Cert.KernelIdeal Cert.KernelIdeal.Gen

/-- The contraction's dimension numbers: both operands are contracted over their second axis, the result's rows are the
    left operand's rows and its columns the right operand's rows. -/
abbrev D := dot_S1024x4096_S1024x4096_S1024x1024_1_1_0_0_n_n

/-- The left operand is read in the result's row … -/
theorem lhs_row (j : S1024x1024.Idx) (q : D.contr.Idx) : (D.lhsIdx j q 0).val = (j 0).val := by
  unfold DotDims.lhsIdx
  rw [dif_neg (show ¬(0 : Fin S1024x4096.rank) ∈ D.lhsBatch by decide), dif_pos (show (0 : Fin S1024x4096.rank) ∈ D.lhsNonContracting by decide)]
  rfl
/-- … at the contraction's position; -/
theorem lhs_col (j : S1024x1024.Idx) (q : D.contr.Idx) : (D.lhsIdx j q 1).val = (q ⟨0, by decide⟩).val :=
  D.lhsIdx_val_of_single rfl j q
/-- the right operand in the row the result's column names … -/
theorem rhs_row (j : S1024x1024.Idx) (q : D.contr.Idx) : (D.rhsIdx j q 0).val = (j 1).val := by
  unfold DotDims.rhsIdx
  rw [dif_neg (show ¬(0 : Fin S1024x4096.rank) ∈ D.rhsBatch by decide), dif_pos (show (0 : Fin S1024x4096.rank) ∈ D.rhsNonContracting by decide)]
  rfl
/-- … at the contraction's position. -/
theorem rhs_col (j : S1024x1024.Idx) (q : D.contr.Idx) : (D.rhsIdx j q 1).val = (q ⟨0, by decide⟩).val :=
  D.rhsIdx_val_of_single rfl j q

/-- The contraction into a zero accumulator, at entry `(p, q)`: the sum over the 4096 input features of the products of
    row `p` of the left block with row `q` of the right block. -/
theorem contraction_apply (l r : FVec Ideal S1024x4096 .bf16) (p q : Fin 1024) :
    matmul D none l r (constant (F := Ideal) S1024x1024 .f32 0x00000000#32) (ix2 p q)
      = ∑ k : Fin 4096, l (ix2 p k) * r (ix2 q k) := by
  show FloatOps.matmul D none l r (constant (F := Ideal) S1024x1024 .f32 0x00000000#32) (ix2 p q) = _
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 4096 rfl rfl).symm k) = ix2 q k := funext fun a => Fin.ext (by
    match a with
    | ⟨0, _⟩ => exact rhs_row _ _
    | ⟨1, _⟩ => exact (rhs_col _ _).trans hk)
  rw [el, er]

/-- The scalar the body extracts from the one-element block is that block's entry. -/
theorem scalar_read (x0 : FVec Ideal S1 .f32) : extractAt ![0] x0 inpos_S1_p0 = x0 (ix1 (0 : Fin 1)) :=
  congrArg x0 (funext fun a => by match a with | ⟨0, _⟩ => rfl)

/-- The bias block viewed as one row and repeated down the 1024 rows reads, at `(p, q)`, the bias of column `q`. -/
theorem bias_read (x3 : FVec Ideal S1024 .f32) (p q : Fin 1024) :
    broadcastTo S1024x1024 (shapeCast S1x1024 x3 shapeCasts_S1024_S1x1024) broadcasts_S1x1024_S1024x1024 (ix2 p q) = x3 (ix1 q) :=
  (broadcastTo_1b_ab_apply _ _ p q).trans (shapeCast_a_1a_apply x3 _ 0 q)

/-- WHAT IS STORED at entry `(p, q)` of the output block, from the four blocks the body loads. -/
theorem stored_apply (x1 x2 : FVec Ideal S1024x4096 .bf16) (x0 : FVec Ideal S1 .f32) (x3 : FVec Ideal S1024 .f32) (p q : Fin 1024) :
    k0_pay1 (F := Ideal) x1 x2 x0 x3 (ix2 p q)
      = (∑ k : Fin 4096, x1 (ix2 p k) * x2 (ix2 q k)) * x0 (ix1 (0 : Fin 1)) + x3 (ix1 q) := by
  unfold k0_pay1
  show matmul D none (shapeCast S1024x4096 x1 shapeCasts_S1024x4096_S1024x4096) (shapeCast S1024x4096 x2 shapeCasts_S1024x4096_S1024x4096)
          (constant (F := Ideal) S1024x1024 .f32 0x00000000#32) (ix2 p q)
        * extractAt ![0] x0 inpos_S1_p0
      + broadcastTo S1024x1024 (shapeCast S1x1024 x3 shapeCasts_S1024_S1x1024) broadcasts_S1x1024_S1024x1024 (ix2 p q) = _
  rw [shapeCast_self, shapeCast_self, contraction_apply, scalar_read, bias_read]

end Cert.KernelIdeal.BlockValue

end
-- ==== Proof.BlockReads.lean ====
/-
  The blocks of the matrix-product region: which entries of its arrays each grid point reads and writes.

  The grid is 8 × 4: point `(i, j)` works on activation rows `1024 i … 1024 i + 1023` and on output features
  `1024 j … 1024 j + 1023`, and writes back the `[1024, 1024]` block `(i, j)` of the `[8192, 4096]` output. The block of
  activation rows it loads is block `i` of the activation matrix, the blocks of weight rows and of biases are block `j` of
  theirs, and the scale is the one-element array itself; the 32 output blocks tile the output.
-/
import proofs.«173431_j6459630813322_1_alg».proof.Proof.Gen.KernelIdeal.Frame
import proofs.«173431_j6459630813322_1_alg».proof.Proof.Spec
import proofs.«173431_j6459630813322_1_alg».proof.Proof.Payload

set_option maxRecDepth 16384

noncomputable section

open scoped BigOperators

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.BlockValue Cert.QuantLinear

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The matrix the output array ends holding: the matrix arrangement over the operand arrays as the region finds them. -/
def target (c : Dev nD) : S8192x4096.Idx → EReal :=
  rowsOut (V m c main_call0_v34) (V m c main_call0_v31) (V m c main_call0_v33 (ix1 (0 : Fin 1))) (V m c main_arg2)

/-- The printed block maps over the grid: the scale's block never moves; the activation rows' block is the output's row
    block; the weight rows' and the biases' blocks are the output's column block; the output's block indices range over
    8 × 4. -/
theorem block_maps : ∀ t : Fin cfg0.N,
    win0_0.index t (0 : Fin 1) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 1) = win0_4.index t (1 : Fin 2)
    ∧ win0_4.index t (0 : Fin 2) ≤ 7 ∧ win0_4.index t (1 : Fin 2) ≤ 3 :=
  (by decide +kernel : ∀ t : Fin grid0.N, _)

/-- Every block of the output is some point's. -/
theorem block_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- The scale's block is the one-element array. -/
theorem scale_block (c : Dev nD) (t : Fin cfg0.N) :
    (iblk m c 0 t : Vec Ideal S1 .f32) (ix1 (0 : Fin 1)) = V m c main_call0_v33 (ix1 (0 : Fin 1)) := by
  obtain ⟨e0, -⟩ := block_maps t
  unfold iblk
  rw [View.read_apply]
  show V m c main_call0_v33 _ = V m c main_call0_v33 _
  refine congrArg _ (funext fun a => Fin.ext ?_)
  match a with
  | ⟨0, _⟩ => show win0_0.index t (0 : Fin 1) * 1 + 1 * 0 = 0; omega

/-- Entry `(p, k)` of the activation rows' block is entry `(r, k)` of the activation matrix, `r` the row the output's block
    puts at `p`. -/
theorem rows_block (c : Dev nD) (t : Fin cfg0.N) (p : Fin 1024) (k : Fin 4096) (r : Fin 8192)
    (hr : r.val = win0_4.index t (0 : Fin 2) * 1024 + p.val) :
    (iblk m c 1 t : Vec Ideal S1024x4096 .bf16) (ix2 p k) = V m c main_call0_v34 (ix2 r k) := by
  obtain ⟨-, e1, e2, -⟩ := block_maps t
  unfold iblk
  rw [View.read_apply]
  show V m c main_call0_v34 _ = V m c main_call0_v34 _
  refine congrArg _ (funext fun a => Fin.ext ?_)
  match a with
  | ⟨0, _⟩ => show win0_1.index t (0 : Fin 2) * 1024 + 1 * p.val = r.val; omega
  | ⟨1, _⟩ => show win0_1.index t (1 : Fin 2) * 4096 + 1 * k.val = k.val; omega

/-- Entry `(q, k)` of the weight rows' block is entry `(o, k)` of the weights, `o` the output feature the output's block puts
    at `q`. -/
theorem weights_block (c : Dev nD) (t : Fin cfg0.N) (q : Fin 1024) (k : Fin 4096) (o : Fin 4096)
    (ho : o.val = win0_4.index t (1 : Fin 2) * 1024 + q.val) :
    (iblk m c 2 t : Vec Ideal S1024x4096 .bf16) (ix2 q k) = V m c main_call0_v31 (ix2 o k) := by
  obtain ⟨-, -, -, e3, e4, -⟩ := block_maps t
  unfold iblk
  rw [View.read_apply]
  show V m c main_call0_v31 _ = V m c main_call0_v31 _
  refine congrArg _ (funext fun a => Fin.ext ?_)
  match a with
  | ⟨0, _⟩ => show win0_2.index t (0 : Fin 2) * 1024 + 1 * q.val = o.val; omega
  | ⟨1, _⟩ => show win0_2.index t (1 : Fin 2) * 4096 + 1 * k.val = k.val; omega

/-- Entry `q` of the biases' block is the bias of that output feature. -/
theorem bias_block (c : Dev nD) (t : Fin cfg0.N) (q : Fin 1024) (o : Fin 4096)
    (ho : o.val = win0_4.index t (1 : Fin 2) * 1024 + q.val) :
    (iblk m c 3 t : Vec Ideal S1024 .f32) (ix1 q) = V m c main_arg2 (ix1 o) := by
  obtain ⟨-, -, -, -, -, e5, -⟩ := block_maps t
  unfold iblk
  rw [View.read_apply]
  show V m c main_arg2 _ = V m c main_arg2 _
  refine congrArg _ (funext fun a => Fin.ext ?_)
  match a with
  | ⟨0, _⟩ => show win0_3.index t (0 : Fin 1) * 1024 + 1 * q.val = o.val; omega

/-- An index of the output is in point `t`'s block iff each coordinate is in the block's range. -/
theorem mem_block (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_call0_v35).slice (win0_4.rect t)).set ↔ _
  rw [View.set_slice_whole, Rect.mem_set_unit]
  exact Iff.rfl

/-- The blocks tile the output: entry `(r, o)` is in the block of the point with block indices `(r / 1024, o / 1024)`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

end Cert.KernelIdeal.ArrayValue

end
-- ==== Proof.ArrayValue.lean ====
/-
  From what each grid point stores to the program's result.

  What a point writes back is block `(i, j)` of ONE matrix — the matrix arrangement of the specification over the arrays
  the region finds — because each loaded block is the corresponding block of its array; as the 32 blocks tile the output,
  the output array ends holding that matrix. The one operation after the region re-arranges it row-major as
  `[4, 2048, 4096]`, which is the program's result.
-/
import proofs.«173431_j6459630813322_1_alg».proof.Proof.BlockReads

set_option maxRecDepth 16384

noncomputable section

open scoped BigOperators

namespace Cert.KernelIdeal.ArrayValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.BlockValue Cert.QuantLinear

variable (m : (ℓ : Loc nD τ sig) → Buf (Elt Ideal) ℓ) (ρ : Dev nD → PrngReg)

/-- If the four loaded blocks are the blocks of four arrays at row `r` and feature `o`, entry `j` of what the body stores
    is entry `(r, o)` of the matrix arrangement over those arrays. -/
theorem entry_eq (X : FVec Ideal S8192x4096 .bf16) (B : FVec Ideal S4096x4096 .bf16) (sv : FVec Ideal S1 .f32) (β : FVec Ideal S4096 .f32)
    (x1 x2 : FVec Ideal S1024x4096 .bf16) (x0 : FVec Ideal S1 .f32) (x3 : FVec Ideal S1024 .f32)
    (j : S1024x1024.Idx) (r : Fin 8192) (o : Fin 4096)
    (h0 : x0 (ix1 (0 : Fin 1)) = sv (ix1 (0 : Fin 1)))
    (h1 : ∀ k : Fin 4096, x1 (ix2 (j 0) k) = X (ix2 r k))
    (h2 : ∀ k : Fin 4096, x2 (ix2 (j 1) k) = B (ix2 o k))
    (h3 : x3 (ix1 (j 1)) = β (ix1 o)) :
    k0_pay1 (F := Ideal) x1 x2 x0 x3 j = rowsAt X B (sv (ix1 (0 : Fin 1))) β r o := by
  obtain ⟨p, q, rfl⟩ : ∃ (p q : Fin 1024), j = ix2 p q := ⟨j 0, j 1, eq_ix2 j⟩
  rw [stored_apply]
  unfold rowsAt
  rw [h0, h3]
  refine congrArg (fun z => z * sv (ix1 (0 : Fin 1)) + β (ix1 o)) (Finset.sum_congr rfl fun k _ => ?_)
  rw [h1 k, h2 k]

/-- WHAT POINT `t` WRITES BACK is block `t` of the target matrix. -/
theorem flushed_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold out0_4
  rw [View.canon_unit_zero zeros2]
  simp only [View.ld_unit_zero (S := S1024x4096) zeros2, View.ld_unit_zero (S := S1) zeros1, View.ld_unit_zero (S := S1024) zeros1]
  obtain ⟨-, -, -, -, -, -, b0, b1⟩ := block_maps t
  funext j
  have hj0 : (j 0).val < 1024 := (j 0).isLt
  have hj1 : (j 1).val < 1024 := (j 1).isLt
  have hr : win0_4.index t (0 : Fin 2) * 1024 + (j 0).val < 8192 := by omega
  have ho : win0_4.index t (1 : Fin 2) * 1024 + (j 1).val < 4096 := by omega
  show k0_pay1 (iblk m c 1 t) (iblk m c 2 t) (iblk m c 0 t) (iblk m c 3 t) j
      = target m c (((cfg0.win 4).blk t).view.emb j)
  refine (entry_eq (V m c main_call0_v34) (V m c main_call0_v31) (V m c main_call0_v33) (V m c main_arg2)
    (iblk m c 1 t) (iblk m c 2 t) (iblk m c 0 t) (iblk m c 3 t) j ⟨_, hr⟩ ⟨_, ho⟩
    (scale_block m c t) (fun k => rows_block m c t (j 0) k ⟨_, hr⟩ rfl)
    (fun k => weights_block m c t (j 1) k ⟨_, ho⟩ rfl) (bias_block m c t (j 1) ⟨_, ho⟩ rfl)).trans ?_
  unfold target rowsOut
  refine congrArg₂ (rowsAt _ _ _ _) (Fin.ext ?_) (Fin.ext ?_)
  · show win0_4.index t (0 : Fin 2) * 1024 + (j 0).val = win0_4.index t (0 : Fin 2) * 1024 + 1 * (j 0).val; omega
  · show win0_4.index t (1 : Fin 2) * 1024 + (j 1).val = win0_4.index t (1 : Fin 2) * 1024 + 1 * (j 1).val; omega

/-- THE OUTPUT ARRAY after the region is the target matrix. -/
theorem final (c : Dev nD) : (dats m 0 c).arrAt 4 cfg0.N = target m c :=
  (dats m 0 c).arrAt_eq_of_cover 4 (target m c) (fun t _ => flushed_eq m c t) covered

/-- The output array is one of the arrays the region leaves behind, so after the region it holds the target matrix. -/
theorem region_result (c : Dev nD) :
    Pipeline.withArrays (cfgs 0).spec c (V0 m c) (fun w => (dats m 0 c).arrAt w (cfgs 0).N) (Proc.devRef .tc main_call0_v35)
      = target m c :=
  (Pipeline.withArrays_arr spec0 launch0.win.arr_inj c _ _ 4).trans (final m c)

/-- The program's result: the target matrix re-arranged row-major as `[4, 2048, 4096]`. -/
theorem tail_eq (c : Dev nD) :
    Pipeline.afterTail₀ cfgs (dats m) 0 (V0 m) [hostOps1] c main_v0
      = shapeCast S4x2048x4096 (target m c) shapeCasts_S8192x4096_S4x2048x4096 := by
  unfold Pipeline.afterTail₀
  show StableHlo.after hostOps1 _ (Proc.devRef .tc main_v0) = _
  after_results
  rw [region_result m c]
  exact rfl

/-- THE RUN, READ: every weakly fair execution ends with the result array at the target matrix re-arranged as
    `[4, 2048, 4096]` and the three argument arrays as launched. -/
theorem run : θ_run defs (onTc (τ := τ) (main (F := Ideal))) ⟨m, fun _ => 0, ρ⟩ fun r => ∀ c : Dev nD,
      r.2.mem ((c.tc : Thread nD τ).loc main_v0) = shapeCast S4x2048x4096 (target m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.KernelIdeal.ArrayValue

end
-- ==== Proof.HostPrefix.lean ====
/-
  What the matrix-product region finds in its operand arrays.

  Before the region the program quantizes both tensors with the same chain of operations the reference uses
  (extrema, step, zero point, rounding, clipping, centring); the region's operands are: the product of the two steps as
  a one-element array, the centred activations re-arranged as an `[8192, 4096]` matrix, and the centred weights. Each is
  stated with the reference's own names for those stages: the two programs apply one and the same chain to the argument
  arrays, operation for operation and constant for constant.
-/
import proofs.«173431_j6459630813322_1_alg».proof.Proof.Gen.KernelIdeal.Frame
import proofs.«173431_j6459630813322_1_alg».proof.Proof.Gen.ReferenceIdeal.Read
import Idealize.ShloMosaic.Lib.StableHlo.Run

set_option Elab.async false

noncomputable section

namespace Cert.KernelIdeal.HostSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-! ## A value carried to its buffer's own type and back is the value -/

/-- Carrying contents to a buffer's type and back changes nothing. -/
theorem ofBuf_toBuf {T : BufTy} (x : TRef sig T) (v : T.Contents (Elt Ideal)) : x.ofBuf (x.toBuf v) = v := by
  simp [TRef.ofBuf, TRef.toBuf]

/-- The activations as launched are the first argument's contents. -/
theorem at_arg0 (c : Dev nD) (p q r) :
    (TRef.of (T := ⟨S4x2048x4096, .f32⟩) main_arg0 p q r).ofBuf (m (c, Proc.devRef .tc main_arg0))
      = m ((c.tc : Thread nD τ).loc main_arg0) := rfl
/-- The weights as launched are the second argument's contents. -/
theorem at_arg1 (c : Dev nD) (p q r) :
    (TRef.of (T := ⟨S4096x4096, .f32⟩) main_arg1 p q r).ofBuf (m (c, Proc.devRef .tc main_arg1))
      = m ((c.tc : Thread nD τ).loc main_arg1) := rfl
/-- The buffers the last three operations read or write hold exactly what was put there. -/
theorem at_v28 (p q r) (Y : (⟨S4x2048x4096, .bf16⟩ : BufTy).Contents (Elt Ideal)) :
    (TRef.of (T := ⟨S4x2048x4096, .bf16⟩) main_call0_v28 p q r).toBuf (Val := Elt Ideal) Y = Y := rfl
theorem at_v31 (p q r) (Y : (⟨S4096x4096, .bf16⟩ : BufTy).Contents (Elt Ideal)) :
    (TRef.of (T := ⟨S4096x4096, .bf16⟩) main_call0_v31 p q r).toBuf (Val := Elt Ideal) Y = Y := rfl
theorem at_v32 (p q r) (Y : (⟨S_, .f32⟩ : BufTy).Contents (Elt Ideal)) :
    (TRef.of (T := ⟨S_, .f32⟩) main_call0_v32 p q r).toBuf (Val := Elt Ideal) Y = Y := rfl

/-! ## The three operands -/

/-- The region's first operand holds the product of the two quantization steps. -/
theorem scale_eq (c : Dev nD) :
    V m c main_call0_v33 = shapeCast S1 (Cert.ReferenceIdeal.Read.val_main_v31 (F := Ideal)
      (m ((c.tc : Thread nD τ).loc main_arg0)) (m ((c.tc : Thread nD τ).loc main_arg1))) shapeCasts_S_S1 := by
  dsimp only [V, V0]
  simp only [hostOps0, List.flatten_cons, List.flatten_nil, List.append_nil, List.cons_append, List.nil_append]
  after_results_simp
  simp only [ofBuf_toBuf, at_v32, at_arg0, at_arg1]
  simp only [
    Cert.ReferenceIdeal.Read.val_main_v31, Cert.ReferenceIdeal.Read.val_main_v3,
    Cert.ReferenceIdeal.Read.val_main_cst_1, Cert.ReferenceIdeal.Read.val_main_v2,
    Cert.ReferenceIdeal.Read.val_main_v1, Cert.ReferenceIdeal.Read.val_main_cst_0,
    Cert.ReferenceIdeal.Read.val_main_v0, Cert.ReferenceIdeal.Read.val_main_cst,
    Cert.ReferenceIdeal.Read.val_main_v16, Cert.ReferenceIdeal.Read.val_main_cst_7,
    Cert.ReferenceIdeal.Read.val_main_v15, Cert.ReferenceIdeal.Read.val_main_v14,
    Cert.ReferenceIdeal.Read.val_main_cst_6, Cert.ReferenceIdeal.Read.val_main_v13,
    Cert.ReferenceIdeal.Read.val_main_cst_5]
  exact rfl

/-- The second holds the centred quantized activations, re-arranged row-major as a matrix (the change of float format
    in between moves no extended real). -/
theorem rows_eq (c : Dev nD) :
    V m c main_call0_v34 = shapeCast S8192x4096 (truncf (F := Ideal) .bf16 (Cert.ReferenceIdeal.Read.val_main_v27 (F := Ideal)
      (m ((c.tc : Thread nD τ).loc main_arg0))) bitsLt_bf16_f32) shapeCasts_S4x2048x4096_S8192x4096 := by
  dsimp only [V, V0]
  simp only [hostOps0, List.flatten_cons, List.flatten_nil, List.append_nil, List.cons_append, List.nil_append]
  after_results_simp
  simp only [ofBuf_toBuf, at_v28, at_arg0]
  simp only [
    Cert.ReferenceIdeal.Read.val_main_v27, Cert.ReferenceIdeal.Read.val_main_v26,
    Cert.ReferenceIdeal.Read.val_main_v12, Cert.ReferenceIdeal.Read.val_main_call2_v4,
    Cert.ReferenceIdeal.Read.val_main_call2_v3, Cert.ReferenceIdeal.Read.val_main_cst_4,
    Cert.ReferenceIdeal.Read.val_main_call2_v2, Cert.ReferenceIdeal.Read.val_main_call2_v1,
    Cert.ReferenceIdeal.Read.val_main_call2_v0, Cert.ReferenceIdeal.Read.val_main_cst_3,
    Cert.ReferenceIdeal.Read.val_main_v11, Cert.ReferenceIdeal.Read.val_main_v10,
    Cert.ReferenceIdeal.Read.val_main_v9, Cert.ReferenceIdeal.Read.val_main_v8, Cert.ReferenceIdeal.Read.val_main_v7,
    Cert.ReferenceIdeal.Read.val_main_v6, Cert.ReferenceIdeal.Read.val_main_v5,
    Cert.ReferenceIdeal.Read.val_main_cst_2, Cert.ReferenceIdeal.Read.val_main_v4,
    Cert.ReferenceIdeal.Read.val_main_v3, Cert.ReferenceIdeal.Read.val_main_cst_1,
    Cert.ReferenceIdeal.Read.val_main_v2, Cert.ReferenceIdeal.Read.val_main_v1,
    Cert.ReferenceIdeal.Read.val_main_cst_0, Cert.ReferenceIdeal.Read.val_main_v0,
    Cert.ReferenceIdeal.Read.val_main_cst]
  exact rfl

/-- The third holds the centred quantized weights. -/
theorem weights_eq (c : Dev nD) :
    V m c main_call0_v31 = truncf (F := Ideal) .bf16 (Cert.ReferenceIdeal.Read.val_main_v29 (F := Ideal)
      (m ((c.tc : Thread nD τ).loc main_arg1))) bitsLt_bf16_f32 := by
  dsimp only [V, V0]
  simp only [hostOps0, List.flatten_cons, List.flatten_nil, List.append_nil, List.cons_append, List.nil_append]
  after_results_simp
  simp only [ofBuf_toBuf, at_v31, at_arg1]
  simp only [
    Cert.ReferenceIdeal.Read.val_main_v29, Cert.ReferenceIdeal.Read.val_main_v28,
    Cert.ReferenceIdeal.Read.val_main_v25, Cert.ReferenceIdeal.Read.val_main_call5_v4,
    Cert.ReferenceIdeal.Read.val_main_call5_v3, Cert.ReferenceIdeal.Read.val_main_cst_10,
    Cert.ReferenceIdeal.Read.val_main_call5_v2, Cert.ReferenceIdeal.Read.val_main_call5_v1,
    Cert.ReferenceIdeal.Read.val_main_call5_v0, Cert.ReferenceIdeal.Read.val_main_cst_9,
    Cert.ReferenceIdeal.Read.val_main_v24, Cert.ReferenceIdeal.Read.val_main_v23,
    Cert.ReferenceIdeal.Read.val_main_v22, Cert.ReferenceIdeal.Read.val_main_v21,
    Cert.ReferenceIdeal.Read.val_main_v20, Cert.ReferenceIdeal.Read.val_main_v19,
    Cert.ReferenceIdeal.Read.val_main_v18, Cert.ReferenceIdeal.Read.val_main_cst_8,
    Cert.ReferenceIdeal.Read.val_main_v17, Cert.ReferenceIdeal.Read.val_main_v16,
    Cert.ReferenceIdeal.Read.val_main_cst_7, Cert.ReferenceIdeal.Read.val_main_v15,
    Cert.ReferenceIdeal.Read.val_main_v14, Cert.ReferenceIdeal.Read.val_main_cst_6,
    Cert.ReferenceIdeal.Read.val_main_v13, Cert.ReferenceIdeal.Read.val_main_cst_5]

end Cert.KernelIdeal.HostSide

end
-- ==== Proof.Bridge.lean ====
/-
  The kernel program's result is the reference's function of the argument arrays.

  The matrix the output array ends holding is the matrix arrangement over the operand arrays the region finds; those are
  the reference's own centred activations (flattened to rows), centred weights and step product, and the bias argument.
  Re-arranging the matrix back to `[4, 2048, 4096]` gives, by the law of the specification (a row-major re-arrangement
  moves no entry, and `· * σ = σ * ·`), the three-axis arrangement — which is what the reference computes.
-/
import proofs.«173431_j6459630813322_1_alg».proof.Proof.ArrayValue
import proofs.«173431_j6459630813322_1_alg».proof.Proof.HostPrefix

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.ArrayValue Cert.QuantLinear

variable (m : (ℓ : Loc nD τ sig) → Buf (Elt Ideal) ℓ)

/-- A change of float format moves no extended real. -/
theorem narrow_id {s : Shape} (A : FVec Ideal s .f32) (h : FTy.bits .bf16 < FTy.bits .f32) :
    truncf (F := Ideal) .bf16 A h = A := funext fun _ => rfl

/-- The one-element array made of a number holds that number. -/
theorem one_element (σ : FVec Ideal S_ .f32) (h : S_.ShapeCasts S1) : shapeCast S1 σ h (ix1 (0 : Fin 1)) = σ ix0 :=
  shapeCast_apply σ h _ _ (by
    have h1 : S_.numel = 1 := by decide
    have h2 : (S_.rowMajor ix0).val < 1 := lt_of_lt_of_eq (S_.rowMajor ix0).isLt h1
    rw [Shape.rowMajor_val_one]
    show (S_.rowMajor ix0).val = 0
    omega)

/-- THE KERNEL PROGRAM'S RESULT as a function of the argument arrays: the three-axis arrangement over the centred
    quantized activations and weights, the product of the two quantization steps and the bias. -/
theorem result_eq (c : Dev nD) :
    shapeCast S4x2048x4096 (target m c) shapeCasts_S8192x4096_S4x2048x4096
      = cubeOut (Cert.ReferenceIdeal.Read.val_main_v27 (F := Ideal) (m ((c.tc : Thread nD τ).loc main_arg0)))
          (Cert.ReferenceIdeal.Read.val_main_v29 (F := Ideal) (m ((c.tc : Thread nD τ).loc main_arg1)))
          (Cert.ReferenceIdeal.Read.val_main_v31 (F := Ideal) (m ((c.tc : Thread nD τ).loc main_arg0)) (m ((c.tc : Thread nD τ).loc main_arg1)) ix0)
          (m ((c.tc : Thread nD τ).loc main_arg2)) := by
  unfold target
  rw [Cert.KernelIdeal.HostSide.rows_eq m c, Cert.KernelIdeal.HostSide.weights_eq m c, Cert.KernelIdeal.HostSide.scale_eq m c,
    V_main_arg2 m c, narrow_id, narrow_id, one_element]
  exact unflatten_rowsOut _ _ _ _ _ _

end Cert.KernelIdeal.Bridge

end
-- ==== Proof.RefValue.lean ====
/-
  The reference's result, entry by entry.

  The reference quantizes and centres both tensors, contracts the activations' last axis with the weights' second axis,
  multiplies every entry by the product of the two quantization steps and adds the bias along the last axis. Read at
  entry `(b, s, o)` that is `σ · ∑ₖ A (b, s, k) · B (o, k) + bias o`, with `A`, `B` the centred tensors and `σ` the product of
  the steps: the three-axis arrangement of the specification.
-/
import proofs.«173431_j6459630813322_1_alg».proof.Proof.Gen.ReferenceIdeal.Read
import proofs.«173431_j6459630813322_1_alg».proof.Proof.Spec

noncomputable section

open scoped BigOperators

namespace Cert.ReferenceIdeal.RefValue

open Idealize.ShloMosaic Idealize.ShloMosaic.ValueIdx
open Cert.ReferenceIdeal Cert.ReferenceIdeal.Read Cert.QuantLinear

/-- The reference's last stage is the three-axis arrangement of its own centred tensors, step product and bias. -/
theorem result_eq (x0 : FVec Ideal S4x2048x4096 .f32) (x1 : FVec Ideal S4096x4096 .f32) (x2 : FVec Ideal S4096 .f32) :
    val_main_v36 (F := Ideal) x0 x1 x2
      = cubeOut (val_main_v27 (F := Ideal) x0) (val_main_v29 (F := Ideal) x1) (val_main_v31 (F := Ideal) x0 x1 ix0) x2 := by
  funext i
  obtain ⟨b, s, o, rfl⟩ : ∃ (b : Fin 4) (s : Fin 2048) (o : Fin 4096), i = ix3 b s o := ⟨i 0, i 1, i 2, eq_ix3 i⟩
  rw [val_main_v36_apply, val_main_v33_apply, val_main_v32_apply, val_main_v30_apply, val_main_v35_apply, val_main_v34_apply]
  have e1 : ∀ k : Fin 4096, lidx_main_v30 (ix3 b s o) k = ix3 b s k := fun k => funext fun a => by
    match a with | ⟨0, _⟩ => rfl | ⟨1, _⟩ => rfl | ⟨2, _⟩ => rfl
  have e2 : ∀ k : Fin 4096, ridx_main_v30 (ix3 b s o) k = ix2 o k := fun k => funext fun a => by
    match a with | ⟨0, _⟩ => rfl | ⟨1, _⟩ => rfl
  have e3 : idx_main_v34 (idx_main_v35 (ix3 b s o)) = ix1 o := funext fun a => by
    match a with | ⟨0, _⟩ => rfl
  have e4 : idx_main_v32 (ix3 b s o) = ix0 := funext fun a => a.elim0
  simp only [e1, e2, e3, e4]
  rfl

end Cert.ReferenceIdeal.RefValue

end
-- ==== Proof.lean ====
/-
  A quantized linear layer, computed two ways, is one function on the extended reals.

  Both programs quantize the activations `x : [4, 2048, 4096]` and the weights `W : [4096, 4096]` per tensor (step
  `(max − min) / 255`, zero point `round (−128 − min / step)`, entries `clip (round (t / step) + zero, −128, 127)`) and
  centre them by their zero points. The reference contracts the centred tensors over the input features, multiplies by
  the product `σ` of the two steps on the left and adds the bias. The kernel program flattens the centred activations to
  8192 rows, computes 32 blocks `[1024, 1024]` of `(rows · weightsᵀ) · σ + bias` on an 8 × 4 grid, and re-arranges the
  `[8192, 4096]` result back to three axes. Changes of float format are the identity on extended reals, a contraction
  into a zero accumulator is the plain sum of products, a row-major re-arrangement moves no entry, and multiplication of
  extended reals is commutative: entry `(b, s, o)` of either result is `σ · ∑ₖ A (b, s, k) · B (o, k) + bias o`. No
  finiteness of the inputs is used; the precondition only frames the claim.

  The pieces: the specification and its law (Spec), what a grid point stores (Payload), which entries each point reads
  and writes (BlockReads), the output array and the kernel program's run (ArrayValue), the operands the region finds as
  the reference's own stages (HostPrefix), the kernel program's result as the three-axis arrangement (Bridge), and the
  reference's result as the same arrangement (RefValue).
-/
import proofs.«173431_j6459630813322_1_alg».proof.Defs
import proofs.«173431_j6459630813322_1_alg».proof.Proof.Gen.Kernel
import proofs.«173431_j6459630813322_1_alg».proof.Proof.Gen.Kernel.Skeleton
import proofs.«173431_j6459630813322_1_alg».proof.Proof.Gen.Kernel.Launch
import proofs.«173431_j6459630813322_1_alg».proof.Proof.Gen.Kernel.Points
import proofs.«173431_j6459630813322_1_alg».proof.Proof.Gen.Kernel.Frame
import proofs.«173431_j6459630813322_1_alg».proof.Proof.Gen.KernelIdeal
import proofs.«173431_j6459630813322_1_alg».proof.Proof.Gen.KernelIdeal.Skeleton
import proofs.«173431_j6459630813322_1_alg».proof.Proof.Gen.KernelIdeal.Launch
import proofs.«173431_j6459630813322_1_alg».proof.Proof.Gen.KernelIdeal.Points
import proofs.«173431_j6459630813322_1_alg».proof.Proof.Gen.KernelIdeal.Frame
import proofs.«173431_j6459630813322_1_alg».proof.Proof.Gen.ReferenceIdeal
import proofs.«173431_j6459630813322_1_alg».proof.Proof.Gen.Pre_finite_inputs
import proofs.«173431_j6459630813322_1_alg».proof.Proof.Gen.ReferenceIdeal.Run
import proofs.«173431_j6459630813322_1_alg».proof.Proof.Gen.ReferenceIdeal.Read
import proofs.«173431_j6459630813322_1_alg».proof.Proof.Bridge
import proofs.«173431_j6459630813322_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel program runs to completion without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote nothing in it. -/
theorem preserves : Cert.preserves_Kernel_KernelIdeal := trivial

/-- From memories agreeing on the three arguments both programs end with the same result array: at entry `(b, s, o)`,
    `σ · ∑ₖ A (b, s, k) · B (o, k) + bias o` for the centred quantized activations `A`, weights `B` and the product `σ` of
    the two quantization steps. -/
theorem algebraic : Cert.algebraic_KernelIdeal_ReferenceIdeal := by
  intro m ρ m' ρ' _ hagree
  refine ⟨fun c => Cert.QuantLinear.cubeOut
      (Cert.ReferenceIdeal.Read.val_main_v27 (F := Ideal) (m ((c.tc : Thread Cert.KernelIdeal.nD Cert.KernelIdeal.τ).loc Cert.KernelIdeal.main_arg0)))
      (Cert.ReferenceIdeal.Read.val_main_v29 (F := Ideal) (m ((c.tc : Thread Cert.KernelIdeal.nD Cert.KernelIdeal.τ).loc Cert.KernelIdeal.main_arg1)))
      (Cert.ReferenceIdeal.Read.val_main_v31 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) ix0)
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.result_eq m c), (h c).2⟩)
      (Cert.KernelIdeal.ArrayValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
